-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x4096x3 : Shape := ⟨3, ![4096, 4096, 3]⟩
abbrev S4096x3 : Shape := ⟨2, ![4096, 3]⟩
abbrev S4000000 : Shape := ⟨1, ![4000000]⟩
abbrev S4000000x2 : Shape := ⟨2, ![4000000, 2]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x4096x3 : S_.BroadcastsInDim S4096x4096x3 (![] : Fin 0 → Fin S4096x4096x3.rank)
  reducesTo_S4096x4096x3_S_d0_1_2 : S4096x4096x3.ReducesTo [0, 1, 2] S_
  bcast_S_S4096x3 : S_.BroadcastsInDim S4096x3 (![] : Fin 0 → Fin S4096x3.rank)
  reducesTo_S4096x3_S_d0_1 : S4096x3.ReducesTo [0, 1] S_
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  main_v18

def fn {F : FTy → Type} [FloatOps F] (main_arg0 : FVec F S4096x4096 .f32) (main_arg1 : FVec F S4096x4096x3 .f32) (main_arg2 : FVec F S4096x3 .f32) (main_arg3 : FVec F S4000000 .f32) (main_arg4 : IVec S4000000x2 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096x3 .f32 := Host.absf main_arg1
  let main_cst_0 : FVec F S_ .f32 := constant S_ .f32 0x7F800000#32
  let main_v5 : FVec F S4096x4096x3 .f32 := broadcastInDim S4096x4096x3 ![] bcast_S_S4096x4096x3 main_cst_0
  let main_v6 : IVec S4096x4096x3 1 := cmpf .olt main_v4 main_v5
  let main_c_1 : IVec S_ 1 := constantI S_ 1 1#1
  let main_v7 : IVec S_ 1 := (fun x v => Host.reduce IntOp.andi x v reducesTo_S4096x4096x3_S_d0_1_2 h_S_) main_v6 main_c_1
  let main_v8 : IVec S_ 1 := andi main_v3 main_v7
  let main_v9 : FVec F S4096x3 .f32 := Host.absf main_arg2
  let main_cst_2 : FVec F S_ .f32 := constant S_ .f32 0x7F800000#32
  let main_v10 : FVec F S4096x3 .f32 := broadcastInDim S4096x3 ![] bcast_S_S4096x3 main_cst_2
  let main_v11 : IVec S4096x3 1 := cmpf .olt main_v9 main_v10
  let main_c_3 : IVec S_ 1 := constantI S_ 1 1#1
  let main_v12 : IVec S_ 1 := (fun x v => Host.reduce IntOp.andi x v reducesTo_S4096x3_S_d0_1 h_S_) main_v11 main_c_3
  let main_v13 : IVec S_ 1 := andi main_v8 main_v12
  let main_v14 : FVec F S4000000 .f32 := Host.absf main_arg3
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_v13 main_v16
-- ==== Kernel.lean ====
abbrev S4096x4096 : Shape := ⟨2, ![4096, 4096]⟩
abbrev S4096x4096x3 : Shape := ⟨3, ![4096, 4096, 3]⟩
abbrev S4096x3 : Shape := ⟨2, ![4096, 3]⟩
abbrev S4000000 : Shape := ⟨1, ![4000000]⟩
abbrev S4000000x2 : Shape := ⟨2, ![4000000, 2]⟩
abbrev S4000000x1 : Shape := ⟨2, ![4000000, 1]⟩
abbrev S_ : Shape := ⟨0, ![]⟩
abbrev S4000000x3 : Shape := ⟨2, ![4000000, 3]⟩
abbrev S4096000 : Shape := ⟨1, ![4096000]⟩
abbrev S32000x128 : Shape := ⟨2, ![32000, 128]⟩
abbrev S3x4000000 : Shape := ⟨2, ![3, 4000000]⟩
abbrev S3x4096000 : Shape := ⟨2, ![3, 4096000]⟩
abbrev S3x32000x128 : Shape := ⟨3, ![3, 32000, 128]⟩
abbrev S128x128 : Shape := ⟨2, ![128, 128]⟩
abbrev S2000x128 : Shape := ⟨2, ![2000, 128]⟩
abbrev S3x2000x128 : Shape := ⟨3, ![3, 2000, 128]⟩
abbrev S8x128 : Shape := ⟨2, ![8, 128]⟩
abbrev S1x2000x128 : Shape := ⟨3, ![1, 2000, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 86
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096x3, .f32⟩
  | .hbm, ⟨2, _⟩ => ⟨S4096x3, .f32⟩
  | .hbm, ⟨3, _⟩ => ⟨S4000000, .f32⟩
  | .hbm, ⟨4, _⟩ => ⟨S4000000x2, .i32⟩
  | .hbm, ⟨5, _⟩ => ⟨S4000000x1, .i32⟩
  | .hbm, ⟨6, _⟩ => ⟨S4000000, .i32⟩
  | .hbm, ⟨7, _⟩ => ⟨S4000000x1, .i32⟩
  | .hbm, ⟨8, _⟩ => ⟨S4000000, .i32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000x1, .i32⟩
  | .hbm, ⟨25, _⟩ => ⟨S4000000x2, .i32⟩
  | .hbm, ⟨26, _⟩ => ⟨S4000000, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000x1, .i32⟩
  | .hbm, ⟨43, _⟩ => ⟨S4000000x2, .i32⟩
  | .hbm, ⟨44, _⟩ => ⟨S4000000x3, .f32⟩
  | .hbm, ⟨45, _⟩ => ⟨S_, .f32⟩
  | .hbm, ⟨46, _⟩ => ⟨S_, .f32⟩
  | .hbm, ⟨47, _⟩ => ⟨S4096000, .f32⟩
  | .hbm, ⟨48, _⟩ => ⟨S_, .f32⟩
  | .hbm, ⟨49, _⟩ => ⟨S_, .f32⟩
  | .hbm, ⟨50, _⟩ => ⟨S4096000, .f32⟩
  | .hbm, ⟨51, _⟩ => ⟨S32000x128, .f32⟩
  | .hbm, ⟨52, _⟩ => ⟨S32000x128, .f32⟩
  | .hbm, ⟨53, _⟩ => ⟨S3x4000000, .f32⟩
  | .hbm, ⟨54, _⟩ => ⟨S_, .f32⟩
  | .hbm, ⟨55, _⟩ => ⟨S_, .f32⟩
  | .hbm, ⟨56, _⟩ => ⟨S3x4096000, .f32⟩
  | .hbm, ⟨57, _⟩ => ⟨S3x32000x128, .f32⟩
  | .hbm, ⟨58, _⟩ => ⟨S3x32000x128, .f32⟩
  | .hbm, ⟨59, _⟩ => ⟨S128x128, .f32⟩
  | .hbm, ⟨60, _⟩ => ⟨S3x4096000, .f32⟩
  | .hbm, ⟨61, _⟩ => ⟨S3x4000000, .f32⟩
  | .hbm, ⟨62, _⟩ => ⟨S4000000x3, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S4096x3, .f32⟩
  | .hbm, ⟨76, _⟩ => ⟨S4000000x3, .f32⟩
  | .hbm, ⟨77, _⟩ => ⟨S_, .i32⟩
  | .hbm, ⟨78, _⟩ => ⟨S4000000, .i32⟩
  | .hbm, ⟨79, _⟩ => ⟨S4000000, .i1⟩
  | .hbm, ⟨80, _⟩ => ⟨S_, .i32⟩
  | .hbm, ⟨81, _⟩ => ⟨S4000000, .i32⟩
  | .hbm, ⟨82, _⟩ => ⟨S4000000, .i32⟩
  | .hbm, ⟨83, _⟩ => ⟨S4000000, .i32⟩
  | .hbm, ⟨84, _⟩ => ⟨S4000000x1, .i32⟩
  | .hbm, ⟨85, _⟩ => ⟨S4096x3, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S3x2000x128, .f32⟩
  | .local _ .vmem, ⟨5, _⟩ => ⟨S3x2000x128, .f32⟩
  | .local _ .vmem, ⟨6, _⟩ => ⟨S3x2000x128, .f32⟩
  | .local _ .vmem, ⟨7, _⟩ => ⟨S3x2000x128, .f32⟩
  | .local _ .vmem, ⟨8, _⟩ => ⟨S8x128, .f32⟩
  | .local _ .vmem, ⟨9, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_call0_v0 : Ref sig .tc := ⟨.hbm, 46, rfl⟩
abbrev main_v32 : Ref sig .tc := ⟨.hbm, 47, rfl⟩
abbrev main_cst_7 : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  pads_S4000000_S4096000_0960000 : S4000000.Pads (![0] : Fin 1 → Nat) ![96000] ![0] S4096000
  h_S_ : 0 < S_.numel
  shapeCasts_S4096000_S32000x128 : S4096000.ShapeCasts S32000x128
  transposes_S4000000x3_S3x4000000_1_0 : S4000000x3.Transposes [1, 0] S3x4000000
  pads_S3x4000000_S3x4096000_000_0960000 : S3x4000000.Pads (![0, 0] : Fin 2 → Nat) ![0, 96000] ![0, 0] S3x4096000
  shapeCasts_S3x4096000_S3x32000x128 : S3x4096000.ShapeCasts S3x32000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S3x2000x128_S3x2000x128_0_0_0 : ∀ a, (![0, 0, 0] : Fin 3 → Nat) a + S3x2000x128.size a ≤ S3x2000x128.size a
  h_S3x2000x128 : 0 < S3x2000x128.numel
  shapeCasts_S3x2000x128_S3x2000x128 : S3x2000x128.ShapeCasts S3x2000x128
  natLt_1_32 : 1 < 32
  shapeCasts_S2000x128_S1x2000x128 : S2000x128.ShapeCasts S1x2000x128
  broadcasts_S1x2000x128_S3x2000x128 : S1x2000x128.Broadcasts S3x2000x128
  reduces_S1x2000x128_S1 : S1x2000x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S3x32000x128_S3x4096000 : S3x32000x128.ShapeCasts S3x4096000
  slices_S3x4096000_S3x4000000_0_0 : S3x4096000.Slices ![0, 0] S3x4000000
  transposes_S3x4000000_S4000000x3_1_0 : S3x4000000.Transposes [1, 0] S4000000x3
  reducesTo_S128x128_S_d0_1 : S128x128.ReducesTo [0, 1] S_
  gather_S4096x4096_S4000000x2_S4000000_n_01_n_n_01_1_11_wf : GatherDims.WF S4096x4096 S4000000x2 S4000000 [] [0, 1] [] [0, 1] [] 1 ![1, 1]
  gather_S4096x4096x3_S4000000x2_S4000000x3_1_01_n_n_01_1_113_wf : GatherDims.WF S4096x4096x3 S4000000x2 S4000000x3 [1] [0, 1] [] [0, 1] [] 1 ![1, 1, 3]
  scatter_S4096x3_S4000000x1_S4000000x3_1_0_0_1_wf : ScatterDims.WF S4096x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S32000x128.size a
  hwx0_0 : ∀ i : grid0.Coords, EltTy.bits .f32 = 32 ∨ (Rect.block (s := S32000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S32000x128.size a
  hwx0_1 : ∀ i : grid0.Coords, EltTy.bits .f32 = 32 ∨ (Rect.block (s := S32000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2000x128.size a ≤ S3x32000x128.size a
  hwx0_2 : ∀ i : grid0.Coords, EltTy.bits .f32 = 32 ∨ (Rect.block (s := S3x32000x128) S3x2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2000x128.size a ≤ S3x32000x128.size a
  hwx0_3 : ∀ i : grid0.Coords, EltTy.bits .f32 = 32 ∨ (Rect.block (s := S3x32000x128) S3x2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

def gather_S4096x4096_S4000000x2_S4000000_n_01_n_n_01_1_11 : GatherDims S4096x4096 S4000000x2 S4000000 where
  offsetDims := []
  collapsedSliceDims := [0, 1]
  operandBatchingDims := []
  startIndicesBatchingDims := []
  startIndexMap := [0, 1]
  indexVectorDim := 1
  sliceSizes := ![1, 1]
  wf := gather_S4096x4096_S4000000x2_S4000000_n_01_n_n_01_1_11_wf
def gather_S4096x4096x3_S4000000x2_S4000000x3_1_01_n_n_01_1_113 : GatherDims S4096x4096x3 S4000000x2 S4000000x3 where
  offsetDims := [1]
  collapsedSliceDims := [0, 1]
  operandBatchingDims := []
  startIndicesBatchingDims := []
  startIndexMap := [0, 1]
  indexVectorDim := 1
  sliceSizes := ![1, 1, 3]
  wf := gather_S4096x4096x3_S4000000x2_S4000000x3_1_01_n_n_01_1_113_wf
def scatter_S4096x3_S4000000x1_S4000000x3_1_0_0_1 : ScatterDims S4096x3 S4000000x1 S4000000x3 where
  updateWindowDims := [1]
  insertedWindowDims := [0]
  scatterDimsToOperandDims := [0]
  indexVectorDim := 1
  wf := scatter_S4096x3_S4000000x1_S4000000x3_1_0_0_1_wf

abbrev win0_0 : Pipeline.Window sig grid0 :=
  Pipeline.Window.ofSpec (Memref.whole main_v34) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S3x2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39_0) S3x2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x4096x3 : Shape := ⟨3, ![4096, 4096, 3]⟩
abbrev S4096x3 : Shape := ⟨2, ![4096, 3]⟩
abbrev S4000000 : Shape := ⟨1, ![4000000]⟩
abbrev S4000000x2 : Shape := ⟨2, ![4000000, 2]⟩
abbrev S4000000x1 : Shape := ⟨2, ![4000000, 1]⟩
abbrev S_ : Shape := ⟨0, ![]⟩
abbrev S4000000x3 : Shape := ⟨2, ![4000000, 3]⟩

abbrev nBuf : Space → Nat
  | .hbm => 90
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096x3, .f32⟩
  | .hbm, ⟨2, _⟩ => ⟨S4096x3, .f32⟩
  | .hbm, ⟨3, _⟩ => ⟨S4000000, .f32⟩
  | .hbm, ⟨4, _⟩ => ⟨S4000000x2, .i32⟩
  | .hbm, ⟨5, _⟩ => ⟨S4000000x1, .i32⟩
  | .hbm, ⟨6, _⟩ => ⟨S4000000, .i32⟩
  | .hbm, ⟨7, _⟩ => ⟨S4000000x1, .i32⟩
  | .hbm, ⟨8, _⟩ => ⟨S4000000, .i32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000x1, .i32⟩
  | .hbm, ⟨25, _⟩ => ⟨S4000000x2, .i32⟩
  | .hbm, ⟨26, _⟩ => ⟨S4000000, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000x1, .i32⟩
  | .hbm, ⟨43, _⟩ => ⟨S4000000x2, .i32⟩
  | .hbm, ⟨44, _⟩ => ⟨S4000000x3, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .i1⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S4000000x1, .f32⟩
  | .hbm, ⟨69, _⟩ => ⟨S4000000x3, .f32⟩
  | .hbm, ⟨70, _⟩ => ⟨S4000000x3, .f32⟩
  | .hbm, ⟨71, _⟩ => ⟨S_, .i32⟩
  | .hbm, ⟨72, _⟩ => ⟨S4000000, .i32⟩
  | .hbm, ⟨73, _⟩ => ⟨S4000000, .i1⟩
  | .hbm, ⟨74, _⟩ => ⟨S_, .i32⟩
  | .hbm, ⟨75, _⟩ => ⟨S4000000, .i32⟩
  | .hbm, ⟨76, _⟩ => ⟨S4000000, .i32⟩
  | .hbm, ⟨77, _⟩ => ⟨S4000000, .i32⟩
  | .hbm, ⟨78, _⟩ => ⟨S4000000x1, .i32⟩
  | .hbm, ⟨79, _⟩ => ⟨S4096x3, .f32⟩
  | .hbm, ⟨80, _⟩ => ⟨S4000000x3, .f32⟩
  | .hbm, ⟨81, _⟩ => ⟨S_, .i32⟩
  | .hbm, ⟨82, _⟩ => ⟨S4000000, .i32⟩
  | .hbm, ⟨83, _⟩ => ⟨S4000000, .i1⟩
  | .hbm, ⟨84, _⟩ => ⟨S_, .i32⟩
  | .hbm, ⟨85, _⟩ => ⟨S4000000, .i32⟩
  | .hbm, ⟨86, _⟩ => ⟨S4000000, .i32⟩
  | .hbm, ⟨87, _⟩ => ⟨S4000000, .i32⟩
  | .hbm, ⟨88, _⟩ => ⟨S4000000x1, .i32⟩
  | .hbm, ⟨89, _⟩ => ⟨S4096x3, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_12 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  reducesTo_S4000000_S_d0 : S4000000.ReducesTo [0] S_
  h_S_ : 0 < S_.numel
  bcast_S4000000x1_S4000000x3_0_1 : S4000000x1.BroadcastsInDim S4000000x3 (![0, 1] : Fin 2 → Fin S4000000x3.rank)
  gather_S4096x4096_S4000000x2_S4000000_n_01_n_n_01_1_11_wf : GatherDims.WF S4096x4096 S4000000x2 S4000000 [] [0, 1] [] [0, 1] [] 1 ![1, 1]
  gather_S4096x4096x3_S4000000x2_S4000000x3_1_01_n_n_01_1_113_wf : GatherDims.WF S4096x4096x3 S4000000x2 S4000000x3 [1] [0, 1] [] [0, 1] [] 1 ![1, 1, 3]
  scatter_S4096x3_S4000000x1_S4000000x3_1_0_0_1_wf : ScatterDims.WF S4096x3 S4000000x1 S4000000x3 [1] [0] [0] 1

variable [Facts₀]

def gather_S4096x4096_S4000000x2_S4000000_n_01_n_n_01_1_11 : GatherDims S4096x4096 S4000000x2 S4000000 where
  offsetDims := []
  collapsedSliceDims := [0, 1]
  operandBatchingDims := []
  startIndicesBatchingDims := []
  startIndexMap := [0, 1]
  indexVectorDim := 1
  sliceSizes := ![1, 1]
  wf := gather_S4096x4096_S4000000x2_S4000000_n_01_n_n_01_1_11_wf
def gather_S4096x4096x3_S4000000x2_S4000000x3_1_01_n_n_01_1_113 : GatherDims S4096x4096x3 S4000000x2 S4000000x3 where
  offsetDims := [1]
  collapsedSliceDims := [0, 1]
  operandBatchingDims := []
  startIndicesBatchingDims := []
  startIndexMap := [0, 1]
  indexVectorDim := 1
  sliceSizes := ![1, 1, 3]
  wf := gather_S4096x4096x3_S4000000x2_S4000000x3_1_01_n_n_01_1_113_wf
def scatter_S4096x3_S4000000x1_S4000000x3_1_0_0_1 : ScatterDims S4096x3 S4000000x1 S4000000x3 where
  updateWindowDims := [1]
  insertedWindowDims := [0]
  scatterDimsToOperandDims := [0]
  indexVectorDim := 1
  wf := scatter_S4096x3_S4000000x1_S4000000x3_1_0_0_1_wf

class Facts : Prop extends Facts₀ where

variable [Facts]
-- ==== Proof.LibIdxSums.lean ====
/-
  General lemmas, no program in sight (they import only the library):

  * sums over a rank-1 or rank-3 index set as iterated sums over the coordinates (the library has rank 2), from the
    equivalences of those index sets with (products of) coordinate ranges;
  * a sum over the m·n positions of a row-major table as the sum over rows of the sums along each row;
  * a one-bit comparison result widened with zeros to 32 bits and converted as a SIGNED integer is the bit converted as an
    UNSIGNED one, at the extended reals: the two spellings of bool.astype(float32) that a kernel and a host program print.
-/
import Idealize.ShloMosaic.PureOps.Ideal
import Idealize.ShloMosaic.Lib.ValueIdx

noncomputable section

open scoped BigOperators

namespace Cert.LibIdxSums

open Idealize.ShloMosaic Idealize.ShloMosaic.ValueIdx

/-! ## A one-bit mask as a float -/

/-- A one-bit word widened with zeros and read as a signed integer is the bit read unsigned: 0 or 1. -/
theorem mask_word (b : BitVec 1) :
    (FloatOps.sitofp (F := Ideal) .f32 (b.setWidth 32) : EReal) = FloatOps.uitofp (F := Ideal) .f32 b := by
  have hb : b = 0#1 ∨ b = 1#1 := by revert b; decide
  rcases hb with rfl | rfl
  · show (((BitVec.setWidth 32 0#1).toInt : ℝ) : EReal) = (((0#1 : BitVec 1).toNat : ℝ) : EReal)
    have h1 : (BitVec.setWidth 32 0#1).toInt = 0 := by decide
    have h2 : (0#1 : BitVec 1).toNat = 0 := by decide
    rw [h1, h2]; simp
  · show (((BitVec.setWidth 32 1#1).toInt : ℝ) : EReal) = (((1#1 : BitVec 1).toNat : ℝ) : EReal)
    have h1 : (BitVec.setWidth 32 1#1).toInt = 1 := by decide
    have h2 : (1#1 : BitVec 1).toNat = 1 := by decide
    rw [h1, h2]; simp

/-! ## Sums over index sets by coordinates -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A sum over m·n positions, row by row. -/
theorem sum_fin_mul {M : Type*} [AddCommMonoid M] (m n : ℕ) (f : ℕ → M) :
    ∑ p : Fin (m * n), f p.val = ∑ a : Fin m, ∑ b : Fin n, f (a.val * n + b.val) := by
  rw [← Equiv.sum_comp finProdFinEquiv, Fintype.sum_prod_type]
  refine Finset.sum_congr rfl fun a _ => Finset.sum_congr rfl fun b _ => ?_
  rw [finProdFinEquiv_apply_val, Nat.mul_comm, Nat.add_comm]

end Cert.LibIdxSums

end
-- ==== Proof.PairMath.lean ====
/-
  The arithmetic shared by the two sides, with no program in sight.

  Per pair e write x = 1/d(e), s = x·x and μ ∈ {0,1} for the cutoff mask. One side forms the sixth power as
  (s·s)·s and the seventh as ((s·s)·s)·x, the other as s·(s·s) and (x·s)·(s·s): equal in any commutative
  monoid, so equal on the extended reals, infinities included. The mask is one bit widened and read signed on one side,
  read unsigned on the other: the same 0 or 1.

  The energy is one sum over the 4 000 000 pairs on one side. On the other side the pairs are laid out row-major in a
  32000 × 128 table, padded past position 4 000 000 with entries whose term is 0, and cut into 16 blocks of 2000 rows;
  block t's sum is written 8·128 = 1024 times into rows 8t … 8t+7 of a 128 × 128 table, the table is summed and the
  total divided by 1024. Regrouping a finite sum in a commutative monoid, dropping zero terms, and
  (1024·X)/1024 = X on every extended real (⊤ and ⊥ are fixed by both steps) give the one sum.
-/
import Idealize.ShloMosaic.PureOps.Ideal
import Idealize.ShloMosaic.PureOps.Ideal.Laws
import Idealize.ShloMosaic.Lib.ValueIdx
import proofs.«123282_j76020921139248_2_alg».proof.Proof.LibIdxSums

noncomputable section

open scoped BigOperators

namespace Cert.PairMath

open Idealize.ShloMosaic Idealize.ShloMosaic.ValueIdx Cert.LibIdxSums

/-! ## One pair -/

/-- The sixth power, in the two groupings. -/
theorem pow6_comm (x : EReal) : ((x * x) * (x * x)) * (x * x) = (x * x) * ((x * x) * (x * x)) := by ac_rfl

/-- The seventh power, in the two groupings. -/
theorem pow7_comm (x : EReal) : (((x * x) * (x * x)) * (x * x)) * x = (x * (x * x)) * ((x * x) * (x * x)) := by ac_rfl

/-! ## The per-pair terms, as each side groups them -/

/-- 1/d. -/
def inv (d : EReal) : EReal := Ideal.div (Ideal.ofBits .f32 0x3F800000#32) d

/-- The cutoff mask d ≤ 12 as the bit widened and read signed. -/
def mskS (d : EReal) : EReal :=
  FloatOps.sitofp (F := Ideal) .f32 ((FloatOps.cmpf (F := Ideal) (φ := .f32) .ole d (Ideal.ofBits .f32 0x41400000#32)).setWidth 32)

/-- The cutoff mask d ≤ 12 as the bit read unsigned. -/
def mskU (d : EReal) : EReal :=
  FloatOps.uitofp (F := Ideal) .f32 (FloatOps.cmpf (F := Ideal) (φ := .f32) .ole d (Ideal.ofBits .f32 0x41400000#32))

theorem mskS_eq (d : EReal) : mskS d = mskU d := mask_word _

/-- The energy term B·(1/d)⁶·μ, the sixth power grouped ((s·s)·s). -/
def eK (d b : EReal) : EReal := (b * (((inv d * inv d) * (inv d * inv d)) * (inv d * inv d))) * mskS d

/-- The energy term, the sixth power grouped (s·(s·s)). -/
def eR (d b : EReal) : EReal := (b * ((inv d * inv d) * ((inv d * inv d) * (inv d * inv d)))) * mskU d

theorem eK_eq (d b : EReal) : eK d b = eR d b := by
  unfold eK eR; rw [mskS_eq, pow6_comm]

/-- The force magnitude (−6·B)·(1/d)⁷·μ, the seventh power grouped (((s·s)·s)·x). -/
def fK (d b : EReal) : EReal :=
  ((Ideal.ofBits .f32 0xC0C00000#32 * b) * ((((inv d * inv d) * (inv d * inv d)) * (inv d * inv d)) * inv d)) * mskS d

/-- The force magnitude, the seventh power grouped ((x·s)·(s·s)). -/
def fR (d b : EReal) : EReal :=
  ((Ideal.ofBits .f32 0xC0C00000#32 * b) * ((inv d * (inv d * inv d)) * ((inv d * inv d) * (inv d * inv d)))) * mskU d

theorem fK_eq (d b : EReal) : fK d b = fR d b := by
  unfold fK fR; rw [mskS_eq, pow7_comm]

/-- A padding entry (distance 1000, coefficient 0) contributes 0 to the energy. -/
theorem eK_pad (d : EReal) : eK d (Ideal.ofBits .f32 0x00000000#32) = 0 := by
  unfold eK; rw [Ideal.ofBits_zero_f32, zero_mul, zero_mul]

/-! ## The padded table -/

/-- Term g at the first 4 000 000 positions, 0 after. -/
def pad0 (g : Fin 4000000 → EReal) (p : ℕ) : EReal := if h : p < 4000000 then g ⟨p, h⟩ else 0

theorem pad0_lt (g : Fin 4000000 → EReal) (p : ℕ) (h : p < 4000000) : pad0 g p = g ⟨p, h⟩ := dif_pos h
theorem pad0_ge (g : Fin 4000000 → EReal) (p : ℕ) (h : ¬ p < 4000000) : pad0 g p = 0 := dif_neg h

/-- The padded table's total is the sum over the pairs. -/
theorem sum_pad0 (g : Fin 4000000 → EReal) : ∑ p : Fin 4096000, pad0 g p.val = ∑ e : Fin 4000000, g e := by
  rw [Fin.sum_univ_eq_sum_range (pad0 g) 4096000,
    ← Finset.sum_subset (Finset.range_mono (by omega : 4000000 ≤ 4096000))
      (fun x _ hx => pad0_ge g x (by rwa [Finset.mem_range] at hx)),
    ← Fin.sum_univ_eq_sum_range (pad0 g) 4000000]
  exact Finset.sum_congr rfl fun e _ => pad0_lt g e.val e.isLt

/-- The 16 block sums together are the padded table's total. -/
theorem sum_blocks (f : ℕ → EReal) :
    ∑ t : Fin 16, ∑ r : Fin 2000, ∑ l : Fin 128, f ((t.val * 2000 + r.val) * 128 + l.val) = ∑ p : Fin 4096000, f p.val := by
  have h1 := sum_fin_mul (16 * 2000) 128 f
  have h2 := sum_fin_mul 16 2000 (fun R => ∑ l : Fin 128, f (R * 128 + l.val))
  exact (h1.trans h2).symm

/-- Each block sum written 1024 times: the 128 × 128 table's total. -/
theorem sum_table (H : ℕ → EReal) :
    ∑ ij : (⟨2, ![128, 128]⟩ : Shape).Idx, H ((ij 0).val / 8) = (1024 : ℕ) • ∑ t : Fin 16, H t.val := by
  rw [sum_idx2]
  have h1 : ∀ a : Fin 128, ∑ _b : Fin 128, H ((ix2 a _b 0).val / 8) = (128 : ℕ) • H (a.val / 8) := fun a => by
    show ∑ _b : Fin 128, H (a.val / 8) = _
    rw [Finset.sum_const, Finset.card_univ, Fintype.card_fin]
  rw [Finset.sum_congr rfl fun a _ => h1 a, ← Finset.smul_sum]
  have h2 := sum_fin_mul 16 8 (fun i => H (i / 8))
  have h3 : ∀ t : Fin 16, ∑ q : Fin 8, H ((t.val * 8 + q.val) / 8) = (8 : ℕ) • H t.val := fun t => by
    rw [Finset.sum_congr rfl fun q _ => (by
      have hq : q.val < 8 := q.isLt
      rw [show (t.val * 8 + q.val) / 8 = t.val by omega] : H ((t.val * 8 + q.val) / 8) = H t.val),
      Finset.sum_const, Finset.card_univ, Fintype.card_fin]
  rw [show (∑ i : Fin 128, H (i.val / 8)) = ∑ p : Fin (16 * 8), H (p.val / 8) from rfl, h2,
    Finset.sum_congr rfl fun t _ => h3 t, ← Finset.smul_sum, smul_smul]
  rfl

/-- The table of block sums of the padded terms totals 1024 times the sum over the pairs. -/
theorem grand_total (g : Fin 4000000 → EReal) :
    ∑ ij : (⟨2, ![128, 128]⟩ : Shape).Idx, ∑ y : (⟨3, ![1, 2000, 128]⟩ : Shape).Idx,
        pad0 g ((((ij 0).val / 8) * 2000 + (y 1).val) * 128 + (y 2).val)
      = (1024 : ℕ) • ∑ e : Fin 4000000, g e := by
  have h := sum_table (fun t => ∑ r : Fin 2000, ∑ l : Fin 128, pad0 g ((t * 2000 + r.val) * 128 + l.val))
  rw [sum_blocks (pad0 g), sum_pad0] at h
  rw [← h]
  refine Finset.sum_congr rfl fun ij _ => ?_
  rw [sum_idx3, Fin.sum_univ_one]

/-! ## Dividing the total by 1024 -/

theorem ofBits_1024 : Ideal.ofBits .f32 0x44800000#32 = ((1024 : ℝ) : EReal) := by
  simp [Ideal.ofBits, Ideal.ieee, -EReal.coe_mul]; norm_num

/-- (1024·X)/1024 = X on every extended real. -/
theorem div_1024 (X : EReal) : Ideal.div ((1024 : ℕ) • X) (Ideal.ofBits .f32 0x44800000#32) = X := by
  rw [ofBits_1024, Ideal.div_coe (by norm_num : (1024 : ℝ) ≠ 0), EReal.nsmul_eq_mul, mul_comm _ X, mul_assoc]
  have h : ((1024 : ℕ) : EReal) * (((1 / 1024 : ℝ)) : EReal) = 1 := by
    rw [show ((1024 : ℕ) : EReal) = ((1024 : ℝ) : EReal) by norm_cast, ← EReal.coe_mul]
    norm_num
  rw [h, mul_one]

end Cert.PairMath

end
-- ==== Proof.KBody.lean ====
/-
  The kernel body's two stored values, read entry by entry at the extended reals.

  With D and B a point's 2000 × 128 blocks of distances and coefficients and W its 3 × 2000 × 128 block of vectors,
  the force block holds at (k, r, l) the force magnitude f(D(r,l), B(r,l)) times W(k,r,l): the magnitude is computed once
  on the 2000 × 128 block, given a leading unit axis, and repeated over the three planes. Every entry of the 8 × 128
  partial-sum block holds the one number Σ over (r,l) of the energy term e(D(r,l), B(r,l)): the block of terms is summed
  over both of its axes into a single entry, which is then repeated over the 8 × 128 block.
-/
import proofs.«123282_j76020921139248_2_alg».proof.Proof.Gen.KernelIdeal.Frame
import proofs.«123282_j76020921139248_2_alg».proof.Proof.PairMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Cert.PairMath
open Idealize.ShloMosaic Idealize.ShloMosaic.TcCoe Idealize.ShloMosaic.ValueIdx

theorem bcast_1rl {α : Type} (v : S1x2000x128.Idx → α) (h : S1x2000x128.Broadcasts S3x2000x128) (k : Fin 3) (r : Fin 2000) (l : Fin 128) :
    broadcastTo S3x2000x128 v h (ix3 k r l) = v (ix3 (0 : Fin 1) r l) := by
  refine broadcastTo_apply v h (ix3 k r l) (ix3 (0 : Fin 1) r l) fun ax => ?_
  match ax with
  | ⟨0, _⟩ => rfl
  | ⟨1, _⟩ => show r.val = if (2000 : Nat) = 1 then 0 else r.val; rw [if_neg (by decide)]
  | ⟨2, _⟩ => show l.val = if (128 : Nat) = 1 then 0 else l.val; rw [if_neg (by decide)]

theorem pay6_apply (x0 x1 : Vec Ideal S2000x128 .f32) (x2 : Vec Ideal S3x2000x128 .f32) (k : Fin 3) (r : Fin 2000) (l : Fin 128) :
    k0_pay6 x0 x1 x2 (ix3 k r l) = fK (x0 (ix2 r l)) (x1 (ix2 r l)) * x2 (ix3 k r l) := by
  unfold k0_pay6 k0_pay5 k0_pay4 k0_pay3 k0_pay2 k0_pay1
  simp only [shapeCast_self]
  rw [mulf_apply, bcast_1rl, shapeCast_ab_1ab_apply]
  rfl

theorem pay7_apply (x0 x1 : Vec Ideal S2000x128 .f32) (y : S8x128.Idx) :
    k0_pay7 x0 x1 y = ∑ z : S1x2000x128.Idx, eK (x0 (ix2 (z 1) (z 2))) (x1 (ix2 (z 1) (z 2))) := by
  unfold k0_pay7 k0_pay5 k0_pay4 k0_pay3 k0_pay2 k0_pay1
  simp only [shapeCast_self]
  refine (broadcastTo_apply _ broadcasts_S1x1_S8x128 y (ix2 (0 : Fin 1) (0 : Fin 1)) (fun a => ?_)).trans ?_
  · match a with
    | ⟨0, _⟩ => rfl
    | ⟨1, _⟩ => rfl
  rw [broadcast_apply]
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ _ (fun b => ?_) _ _ _).trans ?_
  · match b with
    | ⟨0, _⟩ => rfl
  refine Finset.sum_congr rfl fun z _ => ?_
  obtain ⟨u, r, l, rfl⟩ : ∃ (u : Fin 1) (r : Fin 2000) (l : Fin 128), z = ix3 u r l := ⟨z 0, z 1, z 2, eq_ix3 z⟩
  rw [shapeCast_ab_1ab_apply]
  rfl

end Cert.KernelIdeal.Body
end
-- ==== Proof.KRegion.lean ====
/-
  The two arrays the sixteen grid points leave behind, as whole-array functions of the three tables the region reads.

  Point t reads rows 2000t … 2000t+1999 of the distance table D and the coefficient table B (both 32000 × 128) and
  of each of the three planes of the vector table W (3 × 32000 × 128). It writes the same rows of the force table:
  plane k, row R, lane l holds  f(D(R,l), B(R,l)) · W(k,R,l)  with f the force magnitude. And it writes rows
  8t … 8t+7 of the 128 × 128 partial-sum table, every entry the sum over its 2000 × 128 block of the energy terms
  e(D(R,l), B(R,l)). So row i of the partial-sum table reads block i/8. The blocks of either output tile its array,
  so after the last point each array is the one function everywhere.
-/
import proofs.«123282_j76020921139248_2_alg».proof.Proof.KBody

set_option maxRecDepth 16384

noncomputable section

namespace Cert.KernelIdeal.Region

open Cert.KernelIdeal Cert.KernelIdeal.Gen Cert.KernelIdeal.Body Cert.PairMath
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## Rows -/

/-- Row r of point t's block is row 2000t + r of a 32000-row table. -/
def rowAt (t : Fin cfg0.N) (r : Fin 2000) : Fin 32000 :=
  ⟨t.val * 2000 + r.val, by have h := t.isLt; have hN : cfg0.N = 16 := N_0; have := r.isLt; omega⟩

/-- Row p of point t's block of the partial-sum table is its row 8t + p. -/
def sumRowAt (t : Fin cfg0.N) (p : Fin 8) : Fin 128 :=
  ⟨t.val * 8 + p.val, by have h := t.isLt; have hN : cfg0.N = 16 := N_0; have := p.isLt; omega⟩

/-- The table row that row i of the partial-sum table reads as the r-th row of its block: block i/8. -/
def rowOf (i : Fin 128) (r : Fin 2000) : Fin 32000 :=
  ⟨(i.val / 8) * 2000 + r.val, by have := i.isLt; have := r.isLt; omega⟩

theorem rowOf_sumRowAt (t : Fin cfg0.N) (p : Fin 8) (r : Fin 2000) : rowOf (sumRowAt t p) r = rowAt t r := by
  apply Fin.ext
  show ((t.val * 8 + p.val) / 8) * 2000 + r.val = t.val * 2000 + r.val
  have := p.isLt
  rw [show (t.val * 8 + p.val) / 8 = t.val by omega]

/-! ## The two whole-array functions -/

/-- The force table. -/
def forceTable (D B : S32000x128.Idx → EReal) (W : S3x32000x128.Idx → EReal) : S3x32000x128.Idx → EReal :=
  fun i => fK (D (ix2 (i 1 : Fin 32000) (i 2 : Fin 128))) (B (ix2 (i 1 : Fin 32000) (i 2 : Fin 128))) * W i

/-- The partial-sum table. -/
def sumTable (D B : S32000x128.Idx → EReal) : S128x128.Idx → EReal :=
  fun ij => ∑ z : S1x2000x128.Idx,
    eK (D (ix2 (rowOf (ij 0 : Fin 128) (z 1 : Fin 2000)) (z 2 : Fin 128))) (B (ix2 (rowOf (ij 0 : Fin 128) (z 1 : Fin 2000)) (z 2 : Fin 128)))

/-! ## The printed index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 2) = t.val ∧ win0_4.index t (1 : Fin 2) = 0 :=
  (by decide +kernel : ∀ t : Fin grid0.N, _)

/-! ## Where a block's entry sits in its array -/

theorem emb0 (t : Fin cfg0.N) (r : Fin 2000) (l : Fin 128) :
    ((View.whole main_v34).slice ((win0 0).rect t)).emb (ix2 r l) = ix2 (rowAt t r) l := by
  obtain ⟨e0, e1, -⟩ := idx_facts t
  funext a; apply Fin.ext
  match a with
  | ⟨0, _⟩ => show win0_0.index t (0 : Fin 2) * 2000 + 1 * r.val = t.val * 2000 + r.val; rw [e0]; omega
  | ⟨1, _⟩ => show win0_0.index t (1 : Fin 2) * 128 + 1 * l.val = l.val; rw [e1]; omega

theorem emb1 (t : Fin cfg0.N) (r : Fin 2000) (l : Fin 128) :
    ((View.whole main_v35).slice ((win0 1).rect t)).emb (ix2 r l) = ix2 (rowAt t r) l := by
  obtain ⟨-, -, e0, e1, -⟩ := idx_facts t
  funext a; apply Fin.ext
  match a with
  | ⟨0, _⟩ => show win0_1.index t (0 : Fin 2) * 2000 + 1 * r.val = t.val * 2000 + r.val; rw [e0]; omega
  | ⟨1, _⟩ => show win0_1.index t (1 : Fin 2) * 128 + 1 * l.val = l.val; rw [e1]; omega

theorem emb2 (t : Fin cfg0.N) (k : Fin 3) (r : Fin 2000) (l : Fin 128) :
    ((View.whole main_v38).slice ((win0 2).rect t)).emb (ix3 k r l) = ix3 k (rowAt t r) l := by
  obtain ⟨-, -, -, -, e0, e1, e2, -⟩ := idx_facts t
  funext a; apply Fin.ext
  match a with
  | ⟨0, _⟩ => show win0_2.index t (0 : Fin 3) * 3 + 1 * k.val = k.val; rw [e0]; omega
  | ⟨1, _⟩ => show win0_2.index t (1 : Fin 3) * 2000 + 1 * r.val = t.val * 2000 + r.val; rw [e1]; omega
  | ⟨2, _⟩ => show win0_2.index t (2 : Fin 3) * 128 + 1 * l.val = l.val; rw [e2]; omega

theorem emb3 (t : Fin cfg0.N) (k : Fin 3) (r : Fin 2000) (l : Fin 128) :
    ((View.whole main_v39_0).slice ((win0 3).rect t)).emb (ix3 k r l) = ix3 k (rowAt t r) l := by
  obtain ⟨-, -, -, -, -, -, -, e0, e1, e2, -⟩ := idx_facts t
  funext a; apply Fin.ext
  match a with
  | ⟨0, _⟩ => show win0_3.index t (0 : Fin 3) * 3 + 1 * k.val = k.val; rw [e0]; omega
  | ⟨1, _⟩ => show win0_3.index t (1 : Fin 3) * 2000 + 1 * r.val = t.val * 2000 + r.val; rw [e1]; omega
  | ⟨2, _⟩ => show win0_3.index t (2 : Fin 3) * 128 + 1 * l.val = l.val; rw [e2]; omega

theorem emb4 (t : Fin cfg0.N) (p : Fin 8) (q : Fin 128) :
    ((View.whole main_v39_1).slice ((win0 4).rect t)).emb (ix2 p q) = ix2 (sumRowAt t p) q := by
  obtain ⟨-, -, -, -, -, -, -, -, -, -, e0, e1⟩ := idx_facts t
  funext a; apply Fin.ext
  match a with
  | ⟨0, _⟩ => show win0_4.index t (0 : Fin 2) * 8 + 1 * p.val = t.val * 8 + p.val; rw [e0]; omega
  | ⟨1, _⟩ => show win0_4.index t (1 : Fin 2) * 128 + 1 * q.val = q.val; rw [e1]; omega

/-! ## A block's entry read off its array -/

theorem read0 (X : S32000x128.Idx → EReal) (t : Fin cfg0.N) (r : Fin 2000) (l : Fin 128) :
    ((cfg0.win 0).blk t).view.read (Elt Ideal) X (ix2 r l) = X (ix2 (rowAt t r) l) := by
  rw [View.read_apply]
  show X _ = X _
  exact congrArg X (emb0 t r l)

theorem read1 (X : S32000x128.Idx → EReal) (t : Fin cfg0.N) (r : Fin 2000) (l : Fin 128) :
    ((cfg0.win 1).blk t).view.read (Elt Ideal) X (ix2 r l) = X (ix2 (rowAt t r) l) := by
  rw [View.read_apply]
  show X _ = X _
  exact congrArg X (emb1 t r l)

theorem read2 (X : S3x32000x128.Idx → EReal) (t : Fin cfg0.N) (k : Fin 3) (r : Fin 2000) (l : Fin 128) :
    ((cfg0.win 2).blk t).view.read (Elt Ideal) X (ix3 k r l) = X (ix3 k (rowAt t r) l) := by
  rw [View.read_apply]
  show X _ = X _
  exact congrArg X (emb2 t k r l)

theorem read3 (X : S3x32000x128.Idx → EReal) (t : Fin cfg0.N) (k : Fin 3) (r : Fin 2000) (l : Fin 128) :
    ((cfg0.win 3).blk t).view.read (Elt Ideal) X (ix3 k r l) = X (ix3 k (rowAt t r) l) := by
  rw [View.read_apply]
  show X _ = X _
  exact congrArg X (emb3 t k r l)

theorem read4 (X : S128x128.Idx → EReal) (t : Fin cfg0.N) (p : Fin 8) (q : Fin 128) :
    ((cfg0.win 4).blk t).view.read (Elt Ideal) X (ix2 p q) = X (ix2 (sumRowAt t p) q) := by
  rw [View.read_apply]
  show X _ = X _
  exact congrArg X (emb4 t p q)

/-- Point t's force block, entry by entry, is the force table's block. -/
theorem force_block (X0 X1 : S32000x128.Idx → EReal) (X2 : S3x32000x128.Idx → EReal) (t : Fin cfg0.N) (k : Fin 3) (r : Fin 2000) (l : Fin 128) :
    fK (((cfg0.win 0).blk t).view.read (Elt Ideal) X0 (ix2 r l)) (((cfg0.win 1).blk t).view.read (Elt Ideal) X1 (ix2 r l))
        * ((cfg0.win 2).blk t).view.read (Elt Ideal) X2 (ix3 k r l)
      = ((cfg0.win 3).blk t).view.read (Elt Ideal) (forceTable X0 X1 X2) (ix3 k r l) := by
  rw [read0, read1, read2, read3]
  rfl

/-- Point t's partial-sum block, entry by entry, is the partial-sum table's block. -/
theorem sum_block (X0 X1 : S32000x128.Idx → EReal) (t : Fin cfg0.N) (p : Fin 8) (q : Fin 128) :
    (∑ z : S1x2000x128.Idx, eK (((cfg0.win 0).blk t).view.read (Elt Ideal) X0 (ix2 (z 1) (z 2)))
        (((cfg0.win 1).blk t).view.read (Elt Ideal) X1 (ix2 (z 1) (z 2))))
      = ((cfg0.win 4).blk t).view.read (Elt Ideal) (sumTable X0 X1) (ix2 p q) := by
  rw [read4]
  unfold sumTable
  refine Finset.sum_congr rfl fun z _ => ?_
  obtain ⟨u, r, l, rfl⟩ : ∃ (u : Fin 1) (r : Fin 2000) (l : Fin 128), z = ix3 u r l := ⟨z 0, z 1, z 2, eq_ix3 z⟩
  show eK (((cfg0.win 0).blk t).view.read (Elt Ideal) X0 (ix2 r l)) (((cfg0.win 1).blk t).view.read (Elt Ideal) X1 (ix2 r l))
    = eK (X0 (ix2 (rowOf (sumRowAt t p) r) l)) (X1 (ix2 (rowOf (sumRowAt t p) r) l))
  rw [read0, read1, rowOf_sumRowAt]

/-! ## What point t writes back

The three tables are whatever the region finds in its three input arrays; nothing below looks inside them. -/

theorem flushed3_eq (c : Dev nD) (t : Fin cfg0.N) :
    (dats m 0 c).flushed 3 t
      = ((cfg0.win 3).blk t).view.read (Elt Ideal)
          (forceTable (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero hz3]
  simp only [View.ld_unit_zero (S := S2000x128) hz2, View.ld_unit_zero (S := S3x2000x128) hz3]
  funext j
  obtain ⟨k, r, l, rfl⟩ : ∃ (k : Fin 3) (r : Fin 2000) (l : Fin 128), j = ix3 k r l := ⟨j 0, j 1, j 2, eq_ix3 j⟩
  show k0_pay6 (iblk m c 0 t) (iblk m c 1 t) (iblk m c 2 t) (ix3 k r l) = _
  refine (pay6_apply (iblk m c 0 t) (iblk m c 1 t) (iblk m c 2 t) k r l).trans ?_
  exact force_block (V m c (Pipeline.arrRef spec0 0)) (V m c (Pipeline.arrRef spec0 1)) (V m c (Pipeline.arrRef spec0 2)) t k r l

theorem flushed4_eq (c : Dev nD) (t : Fin cfg0.N) :
    (dats m 0 c).flushed 4 t
      = ((cfg0.win 4).blk t).view.read (Elt Ideal)
          (sumTable (V m c (Pipeline.arrRef spec0 0)) (V m c (Pipeline.arrRef spec0 1))) := by
  show (cfg0.win 4).cut (grid0.coords t) ((dats m 0 c).after 4 t) = _
  rw [after0_4]
  unfold out0_4
  rw [View.canon_unit_zero hz2]
  simp only [View.ld_unit_zero (S := S2000x128) hz2]
  funext j
  obtain ⟨p, q, rfl⟩ : ∃ (p : Fin 8) (q : Fin 128), j = ix2 p q := ⟨j 0, j 1, eq_ix2 j⟩
  show k0_pay7 (iblk m c 0 t) (iblk m c 1 t) (ix2 p q) = _
  refine (pay7_apply (iblk m c 0 t) (iblk m c 1 t) (ix2 p q)).trans ?_
  exact sum_block (V m c (Pipeline.arrRef spec0 0)) (V m c (Pipeline.arrRef spec0 1)) t p q

/-! ## The blocks tile the arrays -/

theorem mem_blk3 (t : Fin cfg0.N) (i : S3x32000x128.Idx) :
    i ∈ ((cfg0.win 3).blk t).view.set ↔ ∀ a : Fin 3, win0_3.index t a * S3x2000x128.size a ≤ (i a).val ∧ (i a).val < win0_3.index t a * S3x2000x128.size a + S3x2000x128.size a := by
  show i ∈ ((View.whole main_v39_0).slice (win0_3.rect t)).set ↔ _
  rw [View.set_slice_whole, Rect.mem_set_unit]
  exact Iff.rfl

theorem mem_blk4 (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v39_1).slice (win0_4.rect t)).set ↔ _
  rw [View.set_slice_whole, Rect.mem_set_unit]
  exact Iff.rfl

theorem cover3 (i : S3x32000x128.Idx) : ∃ t : Fin cfg0.N, (cfg0.win 3).flush t = true ∧ i ∈ ((cfg0.win 3).blk t).view.set := by
  have h0 : (i 0).val < 3 := (i 0).isLt
  have h1 : (i 1).val < 32000 := (i 1).isLt
  have h2 : (i 2).val < 128 := (i 2).isLt
  have hN : cfg0.N = 16 := N_0
  let t : Fin cfg0.N := ⟨(i 1).val / 2000, by omega⟩
  obtain ⟨-, -, -, -, -, -, -, e0, e1, e2, -⟩ := idx_facts t
  have e1' : win0_3.index t (1 : Fin 3) = (i 1).val / 2000 := e1
  refine ⟨t, flush0_3 t, ?_⟩
  rw [mem_blk3]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 128 ≤ (i 2).val ∧ (i 2).val < win0_3.index t (2 : Fin 3) * 128 + 128; omega

theorem cover4 (i : S128x128.Idx) : ∃ t : Fin cfg0.N, (cfg0.win 4).flush t = true ∧ i ∈ ((cfg0.win 4).blk t).view.set := by
  have h0 : (i 0).val < 128 := (i 0).isLt
  have h1 : (i 1).val < 128 := (i 1).isLt
  have hN : cfg0.N = 16 := N_0
  let t : Fin cfg0.N := ⟨(i 0).val / 8, by omega⟩
  obtain ⟨-, -, -, -, -, -, -, -, -, -, e0, e1⟩ := idx_facts t
  have e0' : win0_4.index t (0 : Fin 2) = (i 0).val / 8 := e0
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-! ## The arrays after the last point -/

theorem final3 (c : Dev nD) :
    (dats m 0 c).arrAt 3 cfg0.N
      = forceTable (V m c (Pipeline.arrRef spec0 0)) (V m c (Pipeline.arrRef spec0 1)) (V m c (Pipeline.arrRef spec0 2)) :=
  (dats m 0 c).arrAt_eq_of_cover 3 _ (fun t _ => flushed3_eq m c t) cover3

theorem final4 (c : Dev nD) :
    (dats m 0 c).arrAt 4 cfg0.N = sumTable (V m c (Pipeline.arrRef spec0 0)) (V m c (Pipeline.arrRef spec0 1)) :=
  (dats m 0 c).arrAt_eq_of_cover 4 _ (fun t _ => flushed4_eq m c t) cover4

end Cert.KernelIdeal.Region

end
-- ==== Proof.KPrefD.lean ====
/-
  The distance table the region finds: the host lines before the region gather d(e) for the 4 000 000 pairs (the same
  gather, from the same normalised index pairs, that the reference makes), append 96 000 entries of 1000.0, and cut
  the list into rows of 128. Read off the host lines by running them over the launch memory.
-/
import proofs.«123282_j76020921139248_2_alg».proof.Proof.Gen.KernelIdeal.Frame
import proofs.«123282_j76020921139248_2_alg».proof.Proof.Gen.ReferenceIdeal.Read
import Idealize.ShloMosaic.Lib.StableHlo.Run

set_option maxRecDepth 16384

noncomputable section

namespace Cert.KernelIdeal.PrefD

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 8000000 in
theorem table_eq (c : Dev nD) :
    (V m c main_v34 : S32000x128.Idx → EReal)
      = shapeCast S32000x128 (pad S4096000 ![0] ![96000] ![0]
          (Cert.ReferenceIdeal.Read.val_main_v17 (F := Ideal) (m ((c.tc : Thread nD τ).loc main_arg0)) (m ((c.tc : Thread nD τ).loc main_arg4)))
          (constant (F := Ideal) S_ .f32 0x447A0000#32) pads_S4000000_S4096000_0960000 h_S_) shapeCasts_S4096000_S32000x128 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.PrefD

end
-- ==== Proof.KPrefB.lean ====
/-
  The coefficient table the region finds: the argument list B(e) with 96 000 zeros appended, cut into rows of 128.
-/
import proofs.«123282_j76020921139248_2_alg».proof.Proof.Gen.KernelIdeal.Frame
import proofs.«123282_j76020921139248_2_alg».proof.Proof.Gen.ReferenceIdeal.Read
import Idealize.ShloMosaic.Lib.StableHlo.Run

set_option maxRecDepth 16384

noncomputable section

namespace Cert.KernelIdeal.PrefB

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 8000000 in
theorem table_eq (c : Dev nD) :
    (V m c main_v35 : S32000x128.Idx → EReal)
      = shapeCast S32000x128 (pad S4096000 ![0] ![96000] ![0]
          (m ((c.tc : Thread nD τ).loc main_arg3))
          (constant (F := Ideal) S_ .f32 0x00000000#32) pads_S4000000_S4096000_0960000 h_S_) shapeCasts_S4096000_S32000x128 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.PrefB

end
-- ==== Proof.KPrefW.lean ====
/-
  The vector table the region finds: the gathered vectors w(e,k) (the reference's gather) transposed to three lists,
  each with 96 000 zeros appended and cut into rows of 128. Read in two steps: the gather over the first stretch of host
  lines, then the transpose, the padding and the cut over what that stretch left.
-/
import proofs.«123282_j76020921139248_2_alg».proof.Proof.Gen.KernelIdeal.Frame
import proofs.«123282_j76020921139248_2_alg».proof.Proof.Gen.ReferenceIdeal.Read
import Idealize.ShloMosaic.Lib.StableHlo.Run

set_option maxRecDepth 16384

noncomputable section

namespace Cert.KernelIdeal.PrefW

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 8000000 in
/-- The gathered vectors, as the first stretch of host lines leaves them. -/
theorem vecs_eq (c : Dev nD) :
    StableHlo.after hostOps0 (fun b => m (c, b)) (Proc.devRef .tc main_v31)
      = Cert.ReferenceIdeal.Read.val_main_v31 (F := Ideal) (m ((c.tc : Thread nD τ).loc main_arg1)) (m ((c.tc : Thread nD τ).loc main_arg4)) := by
  simp only [hostOps0]
  after_results_simp
  rfl

/-! A value written by one host line and read by the next passes through the buffer's own type and back; at these
literal buffers both passages are the identity. Stated over an arbitrary payload, so that nothing has to be opened. -/

theorem into_v37 (P : (⟨S3x4096000, .f32⟩ : BufTy).Contents (Elt Ideal)) :
    (StableHlo.TRef.of main_v37 : StableHlo.TRef sig ⟨S3x4096000, .f32⟩).toBuf P = P := rfl
theorem from_v36 (P : main_v36.ty.Contents (Elt Ideal)) :
    (StableHlo.TRef.of main_v36 : StableHlo.TRef sig ⟨S3x4000000, .f32⟩).ofBuf P = P := rfl
theorem through_fill (P : (⟨S_, .f32⟩ : BufTy).Contents (Elt Ideal)) :
    (StableHlo.TRef.of main_call2_v0 : StableHlo.TRef sig ⟨S_, .f32⟩).ofBuf
      ((StableHlo.TRef.of main_call2_v0 : StableHlo.TRef sig ⟨S_, .f32⟩).toBuf P) = P := rfl
theorem from_cst (P : main_cst_8.ty.Contents (Elt Ideal)) :
    (StableHlo.TRef.of main_cst_8 : StableHlo.TRef sig ⟨S_, .f32⟩).ofBuf P = P := rfl

set_option maxHeartbeats 8000000 in
theorem table_eq (c : Dev nD) :
    (V m c main_v38 : S3x32000x128.Idx → EReal)
      = shapeCast S3x32000x128 (pad S3x4096000 ![0, 0] ![0, 96000] ![0, 0]
          (transpose S3x4000000 [1, 0]
            (Cert.ReferenceIdeal.Read.val_main_v31 (F := Ideal) (m ((c.tc : Thread nD τ).loc main_arg1)) (m ((c.tc : Thread nD τ).loc main_arg4)))
            transposes_S4000000x3_S3x4000000_1_0)
          (constant (F := Ideal) S_ .f32 0x00000000#32) pads_S3x4000000_S3x4096000_000_0960000 h_S_) shapeCasts_S3x4096000_S3x32000x128 := by
  have hG := vecs_eq m c
  dsimp only [V, V0]
  rw [List.flatten_cons, StableHlo.after_append]
  generalize StableHlo.after hostOps0 (fun b => m (c, b)) = G at hG ⊢
  simp only [hostOps0_1, hostOps0_2, hostOps0_3, hostOps0_4, hostOps0_5, hostOps0_6, List.flatten_cons, List.flatten_nil, List.append_nil, List.cons_append, List.nil_append]
  after_results_simp
  rw [hG, into_v37, from_v36, through_fill, from_cst]
  rfl

end Cert.KernelIdeal.PrefW

end
-- ==== Proof.ScatterTail.lean ====
/-
  The last lines of both programs: forces_out receives the update array at the first atoms of the pairs and its negation
  at the second atoms. Named once, as one function of forces_out, the index pairs and the update array, so that neither
  side ever looks inside a scatter: the two programs differ only in the update array they hand it.
-/
import proofs.«123282_j76020921139248_2_alg».proof.Proof.Gen.ReferenceIdeal.Read

noncomputable section

namespace Cert.ReferenceIdeal.Scatter

open Cert.ReferenceIdeal Cert.ReferenceIdeal.Read
open Idealize.ShloMosaic Idealize.ShloMosaic.TcCoe

/-- Scatter-add the updates at the pairs' first atoms, then their negation at the second atoms. -/
def both (x2 : FVec Ideal S4096x3 .f32) (x4 : (⟨S4000000x2, .i32⟩ : BufTy).Contents (Elt Ideal))
    (U : FVec Ideal S4000000x3 .f32) : FVec Ideal S4096x3 .f32 :=
  Host.scatterAdd (F := Ideal) (φ := .f32) scatter_S4096x3_S4000000x1_S4000000x3_1_0_0_1
    (Host.scatterAdd (F := Ideal) (φ := .f32) scatter_S4096x3_S4000000x1_S4000000x3_1_0_0_1 x2 (val_main_v59 (F := Ideal) x4) U)
    (val_main_v67 (F := Ideal) x4) (Host.negf (F := Ideal) (φ := .f32) U)

/-- The reference's second result is that function of its update stage. -/
theorem ref_forces (x0 : (⟨S4096x4096, .f32⟩ : BufTy).Contents (Elt Ideal)) (x1 : (⟨S4096x4096x3, .f32⟩ : BufTy).Contents (Elt Ideal))
    (x2 : (⟨S4096x3, .f32⟩ : BufTy).Contents (Elt Ideal)) (x3 : (⟨S4000000, .f32⟩ : BufTy).Contents (Elt Ideal))
    (x4 : (⟨S4000000x2, .i32⟩ : BufTy).Contents (Elt Ideal)) :
    val_main_v68 (F := Ideal) x0 x1 x2 x3 x4 = both x2 x4 (val_main_v53 (F := Ideal) x0 x1 x3 x4) := rfl

end Cert.ReferenceIdeal.Scatter

end
-- ==== Proof.KTail.lean ====
/-
  The host lines after the region, read over what the region left.

  The energy is the 128 × 128 partial-sum table summed (from 0) and divided by 1024. The forces are forces_out with
  the update array scattered in twice; the update array at (e, k) is the force table flattened plane by plane to three
  lists, cut back to the first 4 000 000 positions, and transposed. The index vectors the two scatters use were written
  by the host lines BEFORE the region (the first and second atoms of the pairs, negative entries wrapped by 4096), and
  are the ones the reference computes.
-/
import proofs.«123282_j76020921139248_2_alg».proof.Proof.Gen.KernelIdeal.Frame
import proofs.«123282_j76020921139248_2_alg».proof.Proof.ScatterTail
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The force table flattened, cut to the pairs and transposed to (pair, component). -/
def updates (A3 : S3x32000x128.Idx → EReal) : S4000000x3.Idx → EReal :=
  transpose S4000000x3 [1, 0]
    (extractStridedSlice S3x4000000 ![0, 0] (shapeCast S3x4096000 A3 shapeCasts_S3x32000x128_S3x4096000) slices_S3x4096000_S3x4000000_0_0)
    transposes_S3x4000000_S4000000x3_1_0

set_option maxHeartbeats 8000000 in
/-- The pairs' first atoms, as the host lines before the region leave them. -/
theorem first_atoms (c : Dev nD) :
    V0 m c (Proc.devRef .tc main_v1) = Cert.ReferenceIdeal.Read.val_main_v1 (F := Ideal) (m ((c.tc : Thread nD τ).loc main_arg4)) := by
  dsimp only [V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 8000000 in
/-- The pairs' second atoms. -/
theorem second_atoms (c : Dev nD) :
    V0 m c (Proc.devRef .tc main_v3) = Cert.ReferenceIdeal.Read.val_main_v3 (F := Ideal) (m ((c.tc : Thread nD τ).loc main_arg4)) := by
  dsimp only [V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
/-- The energy result over the partial-sum table the region left. -/
theorem energy_eq (c : Dev nD) :
    Pipeline.afterTail₀ cfgs (dats (F := Ideal) m) 0 (V0 m) [hostOps1] c main_v44
      = Host.divf (F := Ideal)
          (Host.reduceAdd (F := Ideal) ((dats m 0 c).arrAt 4 cfg0.N) (constant (F := Ideal) S_ .f32 0x00000000#32) reducesTo_S128x128_S_d0_1 h_S_)
          (constant (F := Ideal) S_ .f32 0x44800000#32) := by
  unfold Pipeline.afterTail₀
  show StableHlo.after hostOps1 _ (Proc.devRef .tc main_v44) = _
  after_results_simp
  have hw : Pipeline.withArrays (cfgs 0).spec c (V0 m c) (fun w => (dats m 0 c).arrAt w (cfgs 0).N) (Proc.devRef .tc main_v39_1)
      = (dats m 0 c).arrAt 4 cfg0.N := Pipeline.withArrays_arr spec0 launch0.win.arr_inj c _ _ 4
  rw [hw]

set_option maxHeartbeats 4000000 in
/-- The forces result over the force table the region left. -/
theorem forces_eq (c : Dev nD) :
    Pipeline.afterTail₀ cfgs (dats (F := Ideal) m) 0 (V0 m) [hostOps1] c main_v59
      = Cert.ReferenceIdeal.Scatter.both (m ((c.tc : Thread nD τ).loc main_arg2)) (m ((c.tc : Thread nD τ).loc main_arg4))
          (updates ((dats m 0 c).arrAt 3 cfg0.N)) := by
  unfold Pipeline.afterTail₀
  show StableHlo.after hostOps1 _ (Proc.devRef .tc main_v59) = _
  after_results_simp
  have h3 : Pipeline.withArrays (cfgs 0).spec c (V0 m c) (fun w => (dats m 0 c).arrAt w (cfgs 0).N) (Proc.devRef .tc main_v39_0)
      = (dats m 0 c).arrAt 3 cfg0.N := Pipeline.withArrays_arr spec0 launch0.win.arr_inj c _ _ 3
  have h1 : Pipeline.withArrays (cfgs 0).spec c (V0 m c) (fun w => (dats m 0 c).arrAt w (cfgs 0).N) (Proc.devRef .tc main_v1)
      = V0 m c (Proc.devRef .tc main_v1) :=
    Pipeline.withArrays_of_ne _ c (V0 m c) _ main_v1 (by exact (by decide : ∀ w, Pipeline.arrRef spec0 w ≠ main_v1))
  have h2 : Pipeline.withArrays (cfgs 0).spec c (V0 m c) (fun w => (dats m 0 c).arrAt w (cfgs 0).N) (Proc.devRef .tc main_v3)
      = V0 m c (Proc.devRef .tc main_v3) :=
    Pipeline.withArrays_of_ne _ c (V0 m c) _ main_v3 (by exact (by decide : ∀ w, Pipeline.arrRef spec0 w ≠ main_v3))
  have ha : Pipeline.withArrays (cfgs 0).spec c (V0 m c) (fun w => (dats m 0 c).arrAt w (cfgs 0).N) (Proc.devRef .tc main_arg2)
      = V0 m c (Proc.devRef .tc main_arg2) :=
    Pipeline.withArrays_of_ne _ c (V0 m c) _ main_arg2 (by exact (by decide : ∀ w, Pipeline.arrRef spec0 w ≠ main_arg2))
  rw [h3, h1, h2, ha, first_atoms, second_atoms, show V0 m c (Proc.devRef .tc main_arg2) = m ((c.tc : Thread nD τ).loc main_arg2) from V_main_arg2 m c]
  rfl

end Cert.KernelIdeal.Tail

end
-- ==== Proof.RefTerms.lean ====
/-
  The reference's per-pair stages read at an index, in the words of the shared per-pair terms.

  With d(e) the gathered distance of pair e, B(e) its coefficient and w(e,k) its gathered vector: the reciprocal stage is
  1/d(e); the mask stage is the comparison d(e) ≤ 12 read as 0 or 1; the energy stage before the sum is the energy term
  of (d(e), B(e)); the force stage is the force magnitude of (d(e), B(e)); and the update stage at (e,k) is that
  magnitude, given a trailing unit axis and repeated over the three components, times w(e,k).
-/
import proofs.«123282_j76020921139248_2_alg».proof.Proof.Gen.ReferenceIdeal.Read
import proofs.«123282_j76020921139248_2_alg».proof.Proof.PairMath

noncomputable section

namespace Cert.ReferenceIdeal.Terms

open Cert.ReferenceIdeal Cert.ReferenceIdeal.Read Cert.PairMath
open Idealize.ShloMosaic Idealize.ShloMosaic.TcCoe Idealize.ShloMosaic.ValueIdx

variable (x0 : (⟨S4096x4096, .f32⟩ : BufTy).Contents (Elt Ideal)) (x1 : (⟨S4096x4096x3, .f32⟩ : BufTy).Contents (Elt Ideal))
  (x3 : (⟨S4000000, .f32⟩ : BufTy).Contents (Elt Ideal)) (x4 : (⟨S4000000x2, .i32⟩ : BufTy).Contents (Elt Ideal))

/-- The reciprocal stage. -/
theorem inv_read (i : S4000000.Idx) : val_main_v33 (F := Ideal) x0 x4 i = inv (val_main_v17 (F := Ideal) x0 x4 i) := by
  rw [val_main_v33_apply, val_main_v32_apply, val_main_cst_apply]; rfl

/-- The mask stage. -/
theorem mask_read (i : S4000000.Idx) : val_main_v36 (F := Ideal) x0 x4 i = mskU (val_main_v17 (F := Ideal) x0 x4 i) := by
  rw [val_main_v36_apply, val_main_v35_apply, val_main_v34_apply, val_main_cst_7_apply]; rfl

/-- The energy stage before the sum. -/
theorem energy_read (i : S4000000.Idx) :
    val_main_v41 (F := Ideal) x0 x3 x4 i = eR (val_main_v17 (F := Ideal) x0 x4 i) (x3 i) := by
  rw [val_main_v41_apply, val_main_v40_apply, val_main_v39_apply, val_main_v38_apply, val_main_v37_apply, inv_read, mask_read]; rfl

/-- The force stage. -/
theorem force_read (i : S4000000.Idx) :
    val_main_v50 (F := Ideal) x0 x3 x4 i = fR (val_main_v17 (F := Ideal) x0 x4 i) (x3 i) := by
  rw [val_main_v50_apply, val_main_v49_apply, val_main_v48_apply, val_main_v47_apply, val_main_v46_apply, val_main_v45_apply,
    val_main_v44_apply, val_main_v43_apply, val_main_cst_9_apply, inv_read, mask_read]; rfl

/-- The update stage. -/
theorem update_read (e : Fin 4000000) (k : Fin 3) :
    val_main_v53 (F := Ideal) x0 x1 x3 x4 (ix2 e k)
      = fR (val_main_v17 (F := Ideal) x0 x4 (ix1 e)) (x3 (ix1 e)) * val_main_v31 (F := Ideal) x1 x4 (ix2 e k) := by
  have hi : idx_main_v51 (idx_main_v52 (ix2 e k)) = ix1 e := funext fun a => match a with | ⟨0, _⟩ => rfl
  rw [val_main_v53_apply, val_main_v52_apply, val_main_v51_apply, force_read, hi]; rfl

end Cert.ReferenceIdeal.Terms

end
-- ==== Proof.HostLayout.lean ====
/-
  The layout steps between the flat list of 4 000 000 pairs and the 32000 × 128 tables, read by coordinates.

  Padding appends 96 000 entries holding one fill value, so position p of the padded list is the list's entry p while
  p < 4 000 000 and the fill value after. Cutting the padded list into rows of 128 puts position R·128 + l at (R, l);
  the same on each of three planes; and flattening a table back puts (p / 128, p mod 128) at position p.
-/
import Idealize.ShloMosaic.Lib.Pipeline.Value
import Idealize.ShloMosaic.Lib.ValueIdx
import Idealize.ShloMosaic.Lib.ValueLayout

noncomputable section

namespace Cert.HostLayout

open Idealize.ShloMosaic Idealize.ShloMosaic.ValueIdx

variable {α : Type}

/-- Position (R, l) of a 32000 × 128 table in the flat padded list. -/
def flatPos (R : Fin 32000) (l : Fin 128) : Fin 4096000 :=
  ⟨R.val * 128 + l.val, by have := R.isLt; have := l.isLt; omega⟩

/-- The row of flat position p. -/
def rowPos (p : Fin 4096000) : Fin 32000 := ⟨p.val / 128, by have := p.isLt; omega⟩
/-- The lane of flat position p. -/
def lanePos (p : Fin 4096000) : Fin 128 := ⟨p.val % 128, by omega⟩

theorem flatPos_row_lane (p : Fin 4096000) : flatPos (rowPos p) (lanePos p) = p := by
  apply Fin.ext
  show p.val / 128 * 128 + p.val % 128 = p.val
  omega

/-- A pair's position in the padded list. -/
def padPos (e : Fin 4000000) : Fin 4096000 := ⟨e.val, by have := e.isLt; omega⟩

/-- The padded list at position p. -/
theorem pad_list_apply (x : (⟨1, ![4000000]⟩ : Shape).Idx → α) (v : (⟨0, ![]⟩ : Shape).Idx → α)
    (h : (⟨1, ![4000000]⟩ : Shape).Pads ![0] ![96000] ![0] ⟨1, ![4096000]⟩) (hu : 0 < (⟨0, ![]⟩ : Shape).numel) (p : Fin 4096000) :
    pad ⟨1, ![4096000]⟩ ![0] ![96000] ![0] x v h hu (ix1 p)
      = if hp : p.val < 4000000 then x (ix1 ⟨p.val, hp⟩) else v ix0 := by
  unfold pad
  by_cases hp : p.val < 4000000
  · have hin : ∀ a : Fin 1, (![0] : Fin 1 → Nat) a ≤ ((ix1 p) (a.cast h.1)).val
        ∧ (((ix1 p) (a.cast h.1)).val - (![0] : Fin 1 → Nat) a) % ((![0] : Fin 1 → Nat) a + 1) = 0
        ∧ (((ix1 p) (a.cast h.1)).val - (![0] : Fin 1 → Nat) a) / ((![0] : Fin 1 → Nat) a + 1) < (⟨1, ![4000000]⟩ : Shape).size a := fun a => by
      match a with
      | ⟨0, _⟩ => show 0 ≤ p.val ∧ (p.val - 0) % (0 + 1) = 0 ∧ (p.val - 0) / (0 + 1) < 4000000; omega
    rw [dif_pos hin, dif_pos hp]
    refine congrArg x (funext fun a => Fin.ext ?_)
    match a with
    | ⟨0, _⟩ => show (p.val - 0) / (0 + 1) = p.val; omega
  · have hin : ¬ ∀ a : Fin 1, (![0] : Fin 1 → Nat) a ≤ ((ix1 p) (a.cast h.1)).val
        ∧ (((ix1 p) (a.cast h.1)).val - (![0] : Fin 1 → Nat) a) % ((![0] : Fin 1 → Nat) a + 1) = 0
        ∧ (((ix1 p) (a.cast h.1)).val - (![0] : Fin 1 → Nat) a) / ((![0] : Fin 1 → Nat) a + 1) < (⟨1, ![4000000]⟩ : Shape).size a := fun hall => by
      have h0 := (hall ⟨0, Nat.one_pos⟩).2.2
      have h0' : (p.val - 0) / (0 + 1) < 4000000 := h0
      omega
    rw [dif_neg hin, dif_neg hp]
    exact congrArg v (eq_ix0 _)

/-- The three padded lists at (k, p). -/
theorem pad_planes_apply (x : (⟨2, ![3, 4000000]⟩ : Shape).Idx → α) (v : (⟨0, ![]⟩ : Shape).Idx → α)
    (h : (⟨2, ![3, 4000000]⟩ : Shape).Pads ![0, 0] ![0, 96000] ![0, 0] ⟨2, ![3, 4096000]⟩) (hu : 0 < (⟨0, ![]⟩ : Shape).numel)
    (k : Fin 3) (p : Fin 4096000) :
    pad ⟨2, ![3, 4096000]⟩ ![0, 0] ![0, 96000] ![0, 0] x v h hu (ix2 k p)
      = if hp : p.val < 4000000 then x (ix2 k ⟨p.val, hp⟩) else v ix0 := by
  unfold pad
  by_cases hp : p.val < 4000000
  · have hin : ∀ a : Fin 2, (![0, 0] : Fin 2 → Nat) a ≤ ((ix2 k p) (a.cast h.1)).val
        ∧ (((ix2 k p) (a.cast h.1)).val - (![0, 0] : Fin 2 → Nat) a) % ((![0, 0] : Fin 2 → Nat) a + 1) = 0
        ∧ (((ix2 k p) (a.cast h.1)).val - (![0, 0] : Fin 2 → Nat) a) / ((![0, 0] : Fin 2 → Nat) a + 1) < (⟨2, ![3, 4000000]⟩ : Shape).size a := fun a => by
      match a with
      | ⟨0, _⟩ => show 0 ≤ k.val ∧ (k.val - 0) % (0 + 1) = 0 ∧ (k.val - 0) / (0 + 1) < 3; have := k.isLt; omega
      | ⟨1, _⟩ => show 0 ≤ p.val ∧ (p.val - 0) % (0 + 1) = 0 ∧ (p.val - 0) / (0 + 1) < 4000000; omega
    rw [dif_pos hin, dif_pos hp]
    refine congrArg x (funext fun a => Fin.ext ?_)
    match a with
    | ⟨0, _⟩ => show (k.val - 0) / (0 + 1) = k.val; omega
    | ⟨1, _⟩ => show (p.val - 0) / (0 + 1) = p.val; omega
  · have hin : ¬ ∀ a : Fin 2, (![0, 0] : Fin 2 → Nat) a ≤ ((ix2 k p) (a.cast h.1)).val
        ∧ (((ix2 k p) (a.cast h.1)).val - (![0, 0] : Fin 2 → Nat) a) % ((![0, 0] : Fin 2 → Nat) a + 1) = 0
        ∧ (((ix2 k p) (a.cast h.1)).val - (![0, 0] : Fin 2 → Nat) a) / ((![0, 0] : Fin 2 → Nat) a + 1) < (⟨2, ![3, 4000000]⟩ : Shape).size a := fun hall => by
      have h0 := (hall ⟨1, by decide⟩).2.2
      have h0' : (p.val - 0) / (0 + 1) < 4000000 := h0
      omega
    rw [dif_neg hin, dif_neg hp]
    exact congrArg v (eq_ix0 _)

/-- The padded list cut into rows of 128. -/
theorem rows_apply (x : (⟨1, ![4096000]⟩ : Shape).Idx → α) (h : (⟨1, ![4096000]⟩ : Shape).ShapeCasts ⟨2, ![32000, 128]⟩)
    (R : Fin 32000) (l : Fin 128) :
    shapeCast ⟨2, ![32000, 128]⟩ x h (ix2 R l) = x (ix1 (flatPos R l)) :=
  shapeCast_apply x h _ _ (by rw [Shape.rowMajor_val_one, Shape.rowMajor_val_two]; rfl)

/-- Each of three padded lists cut into rows of 128. -/
theorem plane_rows_apply (x : (⟨2, ![3, 4096000]⟩ : Shape).Idx → α) (h : (⟨2, ![3, 4096000]⟩ : Shape).ShapeCasts ⟨3, ![3, 32000, 128]⟩)
    (k : Fin 3) (R : Fin 32000) (l : Fin 128) :
    shapeCast ⟨3, ![3, 32000, 128]⟩ x h (ix3 k R l) = x (ix2 k (flatPos R l)) :=
  shapeCast_apply x h _ _ (by
    rw [Shape.rowMajor_val_two, Shape.rowMajor_val_three]
    show k.val * 4096000 + (R.val * 128 + l.val) = (k.val * 32000 + R.val) * 128 + l.val
    omega)

/-- Each of three tables flattened back to a list. -/
theorem plane_flat_apply (y : (⟨3, ![3, 32000, 128]⟩ : Shape).Idx → α) (h : (⟨3, ![3, 32000, 128]⟩ : Shape).ShapeCasts ⟨2, ![3, 4096000]⟩)
    (k : Fin 3) (p : Fin 4096000) :
    shapeCast ⟨2, ![3, 4096000]⟩ y h (ix2 k p) = y (ix3 k (rowPos p) (lanePos p)) :=
  shapeCast_apply y h _ _ (by
    rw [Shape.rowMajor_val_two, Shape.rowMajor_val_three]
    show (k.val * 32000 + p.val / 128) * 128 + p.val % 128 = k.val * 4096000 + p.val
    omega)

end Cert.HostLayout

end
-- ==== Proof.Bridge.lean ====
/-
  The kernel's two results are the reference's.

  Energy. The region leaves the 128 × 128 table whose row i holds, 128 times, the sum over block i/8 of the energy terms
  of the padded 32000 × 128 tables; a table entry past position 4 000 000 has distance 1000 and coefficient 0, so its term is 0, and an
  entry at position p < 4 000 000 carries pair p. The table's total is therefore 1024 times the sum over the pairs,
  and dividing by 1024 gives that sum: the reference's energy, whose terms differ only in how the sixth power is grouped
  and in how the one-bit mask is read.

  Forces. The update array at (e, k) is the force table at plane k, row e / 128, lane e mod 128 — position e, a real pair —
  which is the force magnitude of pair e times its k-th vector component: the reference's update at (e, k), up to the grouping
  of the seventh power and the reading of the mask. Both programs hand their update array to the same two scatters.
-/
import proofs.«123282_j76020921139248_2_alg».proof.Proof.KRegion
import proofs.«123282_j76020921139248_2_alg».proof.Proof.KPrefD
import proofs.«123282_j76020921139248_2_alg».proof.Proof.KPrefB
import proofs.«123282_j76020921139248_2_alg».proof.Proof.KPrefW
import proofs.«123282_j76020921139248_2_alg».proof.Proof.KTail
import proofs.«123282_j76020921139248_2_alg».proof.Proof.RefTerms
import proofs.«123282_j76020921139248_2_alg».proof.Proof.HostLayout

set_option maxRecDepth 16384

noncomputable section

namespace Cert.Bridge

open Cert.KernelIdeal Cert.KernelIdeal.Gen Cert.PairMath Cert.LibIdxSums Cert.HostLayout
open Cert.KernelIdeal.Region Cert.KernelIdeal.Tail
open Idealize.ShloMosaic Idealize.ShloMosaic.TcCoe Idealize.ShloMosaic.ValueIdx Idealize.SL.Sem

/-! ## The padded tables, entry by entry -/

section Tables

variable (dv bv : S4000000.Idx → EReal) (wv : S4000000x3.Idx → EReal)

/-- The padded distance table. -/
abbrev Dtab : S32000x128.Idx → EReal :=
  shapeCast S32000x128 (pad S4096000 ![0] ![96000] ![0] dv (constant (F := Ideal) S_ .f32 0x447A0000#32) pads_S4000000_S4096000_0960000 h_S_)
    shapeCasts_S4096000_S32000x128

/-- The padded coefficient table. -/
abbrev Btab : S32000x128.Idx → EReal :=
  shapeCast S32000x128 (pad S4096000 ![0] ![96000] ![0] bv (constant (F := Ideal) S_ .f32 0x00000000#32) pads_S4000000_S4096000_0960000 h_S_)
    shapeCasts_S4096000_S32000x128

/-- The padded vector table. -/
abbrev Wtab : S3x32000x128.Idx → EReal :=
  shapeCast S3x32000x128 (pad S3x4096000 ![0, 0] ![0, 96000] ![0, 0]
      (transpose S3x4000000 [1, 0] wv transposes_S4000000x3_S3x4000000_1_0)
      (constant (F := Ideal) S_ .f32 0x00000000#32) pads_S3x4000000_S3x4096000_000_0960000 h_S_) shapeCasts_S3x4096000_S3x32000x128

/-- A table entry's energy term is the padded list's term at its flat position. -/
theorem table_term (R : Fin 32000) (l : Fin 128) :
    eK (Dtab dv (ix2 R l)) (Btab bv (ix2 R l)) = pad0 (fun e => eK (dv (ix1 e)) (bv (ix1 e))) (flatPos R l).val := by
  unfold Dtab Btab
  rw [rows_apply, rows_apply, pad_list_apply, pad_list_apply]
  by_cases hp : (flatPos R l).val < 4000000
  · rw [dif_pos hp, dif_pos hp, pad0_lt _ _ hp]
  · rw [dif_neg hp, dif_neg hp, pad0_ge _ _ hp]
    exact eK_pad _

/-- The partial-sum table of the padded tables totals 1024 times the sum over the pairs. -/
theorem table_total :
    ∑ ij : S128x128.Idx, sumTable (Dtab dv) (Btab bv) ij = (1024 : ℕ) • ∑ e : Fin 4000000, eK (dv (ix1 e)) (bv (ix1 e)) := by
  rw [← grand_total]
  refine Finset.sum_congr rfl fun ij _ => Finset.sum_congr rfl fun z _ => ?_
  exact table_term dv bv (rowOf (ij 0) (z 1)) (z 2)

/-- The force table at a real pair's position. -/
theorem force_at_pair (e : Fin 4000000) (k : Fin 3) :
    forceTable (Dtab dv) (Btab bv) (Wtab wv) (ix3 k (rowPos (padPos e)) (lanePos (padPos e)))
      = fK (dv (ix1 e)) (bv (ix1 e)) * wv (ix2 e k) := by
  have hp : (padPos e).val < 4000000 := e.isLt
  show fK (Dtab dv (ix2 (rowPos (padPos e)) (lanePos (padPos e)))) (Btab bv (ix2 (rowPos (padPos e)) (lanePos (padPos e))))
      * Wtab wv (ix3 k (rowPos (padPos e)) (lanePos (padPos e))) = _
  unfold Dtab Btab Wtab
  rw [rows_apply, rows_apply, plane_rows_apply, flatPos_row_lane, pad_list_apply, pad_list_apply, pad_planes_apply,
    dif_pos hp, dif_pos hp, dif_pos hp, transpose_ix2_apply]
  rfl

/-- The update array the host tail cuts out of the force table. -/
theorem updates_apply (A3 : S3x32000x128.Idx → EReal) (e : Fin 4000000) (k : Fin 3) :
    updates A3 (ix2 e k) = A3 (ix3 k (rowPos (padPos e)) (lanePos (padPos e))) := by
  unfold updates
  rw [transpose_ix2_apply, slice2_axis1_apply 0 _ _ k e (padPos e) (by show e.val = 0 + e.val; omega), plane_flat_apply]

end Tables

/-! ## The two results -/

variable (m : (ℓ : Loc nD τ sig) → Buf (Elt Ideal) ℓ)

/-- What the region finds in its three input arrays. -/
theorem inD (c : Dev nD) : (V m c (Pipeline.arrRef spec0 0) : S32000x128.Idx → EReal)
    = Dtab (Cert.ReferenceIdeal.Read.val_main_v17 (F := Ideal) (m ((c.tc : Thread nD τ).loc main_arg0)) (m ((c.tc : Thread nD τ).loc main_arg4))) :=
  Cert.KernelIdeal.PrefD.table_eq m c
theorem inB (c : Dev nD) : (V m c (Pipeline.arrRef spec0 1) : S32000x128.Idx → EReal)
    = Btab (m ((c.tc : Thread nD τ).loc main_arg3)) :=
  Cert.KernelIdeal.PrefB.table_eq m c
theorem inW (c : Dev nD) : (V m c (Pipeline.arrRef spec0 2) : S3x32000x128.Idx → EReal)
    = Wtab (Cert.ReferenceIdeal.Read.val_main_v31 (F := Ideal) (m ((c.tc : Thread nD τ).loc main_arg1)) (m ((c.tc : Thread nD τ).loc main_arg4))) :=
  Cert.KernelIdeal.PrefW.table_eq m c

/-- A sum from 0 of a 128 × 128 table, divided by 1024, at the one index of a rank-0 result. -/
theorem sum_div_read (A : S128x128.Idx → EReal) (i : S_.Idx) :
    Host.divf (F := Ideal) (φ := .f32)
        (Host.reduceAdd (F := Ideal) (φ := .f32) A (constant (F := Ideal) S_ .f32 0x00000000#32) reducesTo_S128x128_S_d0_1 h_S_)
        (constant (F := Ideal) S_ .f32 0x44800000#32) i
      = Ideal.div (∑ ij : S128x128.Idx, A ij) (Ideal.ofBits .f32 0x44800000#32) := by
  show Ideal.div (Host.reduceAdd (F := Ideal) (φ := .f32) A (constant (F := Ideal) S_ .f32 0x00000000#32) reducesTo_S128x128_S_d0_1 h_S_ i) _ = _
  simp only [Host.reduceAdd, Ideal.hostReduceAdd_def]
  rw [Ideal.hostReduceAdd_total reducesTo_S128x128_S_d0_1 (fun b => b.elim0) A _ i]
  show Ideal.div (Ideal.ofBits .f32 0x00000000#32 + _) _ = _
  rw [Ideal.ofBits_zero_f32, zero_add]
  rfl

/-- THE ENERGY. -/
theorem energy (c : Dev nD) :
    Pipeline.afterTail₀ cfgs (dats (F := Ideal) m) 0 (V0 m) [hostOps1] c main_v44
      = Cert.ReferenceIdeal.Read.val_main_v42 (F := Ideal) (m ((c.tc : Thread nD τ).loc main_arg0)) (m ((c.tc : Thread nD τ).loc main_arg3))
          (m ((c.tc : Thread nD τ).loc main_arg4)) := by
  rw [energy_eq, final4, inD, inB]
  funext i
  rw [sum_div_read, table_total, div_1024, Cert.ReferenceIdeal.Read.val_main_v42_apply, Cert.ReferenceIdeal.Read.val_main_cst_8_apply]
  show _ = Ideal.ofBits .f32 0x00000000#32 + _
  rw [Ideal.ofBits_zero_f32, zero_add, sum_idx1]
  refine Finset.sum_congr rfl fun e _ => ?_
  rw [Cert.ReferenceIdeal.Terms.energy_read, eK_eq]

/-- THE FORCES. -/
theorem forces (c : Dev nD) :
    Pipeline.afterTail₀ cfgs (dats (F := Ideal) m) 0 (V0 m) [hostOps1] c main_v59
      = Cert.ReferenceIdeal.Read.val_main_v68 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [forces_eq, final3, inD, inB, inW, Cert.ReferenceIdeal.Scatter.ref_forces]
  refine congrArg _ (funext fun i => ?_)
  obtain ⟨e, k, rfl⟩ : ∃ (e : Fin 4000000) (k : Fin 3), i = ix2 e k := ⟨i 0, i 1, eq_ix2 i⟩
  rw [updates_apply, force_at_pair, Cert.ReferenceIdeal.Terms.update_read, fK_eq]

end Cert.Bridge

end
-- ==== Proof.lean ====
/-
  A pairwise repulsion energy and its forces, computed two ways.

  Both programs gather, for 4 000 000 atom pairs e = (a, b), the distance d(e) and the vector w(e,·) from dense tables,
  form x = 1/d, the cutoff mask μ = [d ≤ 12], the energy Σ_e B(e)·x⁶·μ and the per-pair force (−6·B(e))·x⁷·μ, and
  scatter-add force·w at atom a and its negation at atom b into forces_out.

  The reference does this on flat lists. The kernel's program lays the pairs out row-major in 32000 × 128 tables — padded
  past the last pair with distance 1000 and coefficient 0, whose terms vanish — and runs a 16-point grid over blocks of
  2000 rows: each point writes its rows of the force table and its block's energy sum, 1024 times, into a 128 × 128
  table; afterwards the table is summed and divided by 1024, and the force table is flattened, cut back to the pairs and
  handed to the same two scatter-adds.

  At the extended reals the two agree by: commutativity and associativity of the product (the two groupings of x⁶ and x⁷),
  the one-bit mask read signed after widening or read unsigned, regrouping of a finite sum with zero terms dropped, and
  (1024·X)/1024 = X, which also holds at ±∞. No distributivity is used, so finiteness of the inputs is never opened.
  The frames are the generated ones; the reference's frame is its generated run with the results dropped; the ideal
  pass rewrote nothing, so the idealization claim is trivial.
-/
import proofs.«123282_j76020921139248_2_alg».proof.Defs
import proofs.«123282_j76020921139248_2_alg».proof.Proof.Gen.Kernel
import proofs.«123282_j76020921139248_2_alg».proof.Proof.Gen.Kernel.Skeleton
import proofs.«123282_j76020921139248_2_alg».proof.Proof.Gen.Kernel.Launch
import proofs.«123282_j76020921139248_2_alg».proof.Proof.Gen.Kernel.Points
import proofs.«123282_j76020921139248_2_alg».proof.Proof.Gen.Kernel.Frame
import proofs.«123282_j76020921139248_2_alg».proof.Proof.Gen.KernelIdeal
import proofs.«123282_j76020921139248_2_alg».proof.Proof.Gen.KernelIdeal.Skeleton
import proofs.«123282_j76020921139248_2_alg».proof.Proof.Gen.KernelIdeal.Launch
import proofs.«123282_j76020921139248_2_alg».proof.Proof.Gen.KernelIdeal.Points
import proofs.«123282_j76020921139248_2_alg».proof.Proof.Gen.KernelIdeal.Frame
import proofs.«123282_j76020921139248_2_alg».proof.Proof.Gen.ReferenceIdeal
import proofs.«123282_j76020921139248_2_alg».proof.Proof.Gen.Pre_finite_inputs
import proofs.«123282_j76020921139248_2_alg».proof.Proof.Gen.ReferenceIdeal.Run
import proofs.«123282_j76020921139248_2_alg».proof.Proof.Gen.ReferenceIdeal.Read
import proofs.«123282_j76020921139248_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

section
open Cert.KernelIdeal Cert.KernelIdeal.Gen

/-- The kernel's program ends with the reference's two stages of ITS OWN argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
          = Cert.ReferenceIdeal.Read.val_main_v42 (F := Ideal) (m ((c.tc : Thread nD τ).loc main_arg0)) (m ((c.tc : Thread nD τ).loc main_arg3))
              (m ((c.tc : Thread nD τ).loc main_arg4))
      ∧ r.2.mem ((c.tc : Thread nD τ).loc main_v59)
          = Cert.ReferenceIdeal.Read.val_main_v68 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v44 (Pipeline.mem_restRefs_of main_v44 (by decide) (by decide))).trans (Cert.Bridge.energy m c),
     ((h c).2 main_v59 (Pipeline.mem_restRefs_of main_v59 (by decide) (by decide))).trans (Cert.Bridge.forces m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main (F := Ideal) m ρ)

end

/-- From memories agreeing on the arguments both programs end at the reference's two stages of those arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, (hagree c).1, (hagree c).2.2.2.1, (hagree c).2.2.2.2]
  · rw [Cert.ReferenceIdeal.Read.val_main_v68_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
